-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S512x1 : Shape := ⟨2, ![512, 1]⟩
abbrev S1 : Shape := ⟨1, ![1]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S8192x256 .f32) (main_arg1 : FVec F S8192x8192 .f32) (main_arg2 : FVec F S512x1 .f32) (main_arg3 : FVec F S1 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x1 .f32 := Host.absf main_arg2
  let main_cst_2 : FVec F S_ .f32 := constant S_ .f32 0x7F800000#32
  let main_v10 : FVec F S512x1 .f32 := broadcastInDim S512x1 ![] bcast_S_S512x1 main_cst_2
  let main_v11 : IVec S512x1 1 := cmpf .olt main_v9 main_v10
  let main_c_3 : IVec S_ 1 := constantI S_ 1 1#1
  let main_v12 : IVec S_ 1 := (fun x v => Host.reduce IntOp.andi x v reducesTo_S512x1_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S8192x256 : Shape := ⟨2, ![8192, 256]⟩
abbrev S8192x8192 : Shape := ⟨2, ![8192, 8192]⟩
abbrev S512x1 : Shape := ⟨2, ![512, 1]⟩
abbrev S1 : Shape := ⟨1, ![1]⟩
abbrev S256x1 : Shape := ⟨2, ![256, 1]⟩
abbrev S8192x1 : Shape := ⟨2, ![8192, 1]⟩
abbrev S1x1 : Shape := ⟨2, ![1, 1]⟩
abbrev S1x8192 : Shape := ⟨2, ![1, 8192]⟩
abbrev S1024x2048 : Shape := ⟨2, ![1024, 2048]⟩
abbrev S1024x1 : Shape := ⟨2, ![1024, 1]⟩
abbrev S1x2048 : Shape := ⟨2, ![1, 2048]⟩

abbrev nBuf : Space → Nat
  | .hbm => 13
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S512x1, .f32⟩
  | .hbm, ⟨3, _⟩ => ⟨S1, .f32⟩
  | .hbm, ⟨4, _⟩ => ⟨S256x1, .f32⟩
  | .hbm, ⟨5, _⟩ => ⟨S256x1, .f32⟩
  | .hbm, ⟨6, _⟩ => ⟨S8192x1, .f32⟩
  | .hbm, ⟨7, _⟩ => ⟨S1x1, .f32⟩
  | .hbm, ⟨8, _⟩ => ⟨S8192x1, .f32⟩
  | .hbm, ⟨9, _⟩ => ⟨S8192x1, .f32⟩
  | .hbm, ⟨10, _⟩ => ⟨S8192x1, .f32⟩
  | .hbm, ⟨11, _⟩ => ⟨S1x8192, .f32⟩
  | .hbm, ⟨12, _⟩ => ⟨S8192x8192, .f32⟩
  | .local _ .vmem, ⟨0, _⟩ => ⟨S8192x1, .f32⟩
  | .local _ .vmem, ⟨1, _⟩ => ⟨S1x8192, .f32⟩
  | .local _ .vmem, ⟨2, _⟩ => ⟨S1024x2048, .f32⟩
  | .local _ .vmem, ⟨3, _⟩ => ⟨S1024x2048, .f32⟩
  | .local _ .vmem, ⟨4, _⟩ => ⟨S1024x2048, .f32⟩
  | .local _ .vmem, ⟨5, _⟩ => ⟨S1024x2048, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg0 : BitVec 32 := BitVec.ofNat 32 (i 0).val
  let c1024_i32 : BitVec 32 := 1024#32
  let v0 : BitVec 32 := Scalar.muli arg0 c1024_i32
  v0
def k0_mult2 (i : grid0.Coords) : BitVec 32 :=
  let arg1 : BitVec 32 := BitVec.ofNat 32 (i 1).val
  let c2048_i32 : BitVec 32 := 2048#32
  let v2 : BitVec 32 := Scalar.muli arg1 c2048_i32
  v2
def k0_off1 (i : grid0.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let v4 : Index := Scalar.indexCast v1
  let c0 : Index := 0#32
  ![v4.toNat, 0]
def k0_off2 (i : grid0.Coords) : Fin 2 → Nat :=
  let c0_0 : Index := 0#32
  let arg1 : BitVec 32 := BitVec.ofNat 32 (i 1).val
  let c2048_i32 : BitVec 32 := 2048#32
  let v2 : BitVec 32 := Scalar.muli arg1 c2048_i32
  let v3 : BitVec 32 := v2
  let v7 : Index := Scalar.indexCast v3
  ![0, v7.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8192x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  slices_S512x1_S256x1_0_0 : S512x1.Slices ![0, 0] S256x1
  slices_S512x1_S256x1_256_0 : S512x1.Slices ![256, 0] S256x1
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  transposes_S8192x1_S1x8192_1_0 : S8192x1.Transposes [1, 0] S1x8192
  h_S1024x1 : 0 < S1024x1.numel
  shapeCasts_S1024x1_S1024x1 : S1024x1.ShapeCasts S1024x1
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  dot_S8192x256_S256x1_S8192x1_1_0_0_1_n_n_wf : DotDims.WF S8192x256 S256x1 S8192x1 [1] [0] [0] [1] [] []
  hrank0 : 0 < grid0.rank
  k0_mult1_dvd : ∀ i : grid0.Coords, 1024 ∣ (k0_mult1 i).toNat
  k0_mult2_dvd : ∀ i : grid0.Coords, 2048 ∣ (k0_mult2 i).toNat
  k0_off1_inb : ∀ i : grid0.Coords, ∀ a, (k0_off1 i) a + S1024x1.size a ≤ S8192x1.size a
  k0_off2_inb : ∀ i : grid0.Coords, ∀ a, (k0_off2 i) a + S1x2048.size a ≤ S1x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x1.size a ≤ S8192x1.size a
  hwx0_0 : ∀ i : grid0.Coords, EltTy.bits .f32 = 32 ∨ (Rect.block (s := S8192x1) S8192x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .f32 = 32 ∨ (Rect.block (s := S1x8192) S1x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x8192.size a
  hwx0_2 : ∀ i : grid0.Coords, EltTy.bits .f32 = 32 ∨ (Rect.block (s := S8192x8192) S1024x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x8192.size a
  hwx0_3 : ∀ i : grid0.Coords, EltTy.bits .f32 = 32 ∨ (Rect.block (s := S8192x8192) S1024x2048.size (cc0_transform_3 i) (hinb0_3 i)).WholeWords (EltTy.packing .f32)

variable [Facts₀]

def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf

abbrev win0_0 : Pipeline.Window sig grid0 :=
  Pipeline.Window.ofSpec (Memref.whole main_v5) S8192x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x256 : Shape := ⟨2, ![8192, 256]⟩
abbrev S8192x8192 : Shape := ⟨2, ![8192, 8192]⟩
abbrev S512x1 : Shape := ⟨2, ![512, 1]⟩
abbrev S1 : Shape := ⟨1, ![1]⟩
abbrev S256x1 : Shape := ⟨2, ![256, 1]⟩
abbrev S8192x1 : Shape := ⟨2, ![8192, 1]⟩
abbrev S1x8192 : Shape := ⟨2, ![1, 8192]⟩
abbrev S1x1 : Shape := ⟨2, ![1, 1]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S512x1, .f32⟩
  | .hbm, ⟨3, _⟩ => ⟨S1, .f32⟩
  | .hbm, ⟨4, _⟩ => ⟨S256x1, .f32⟩
  | .hbm, ⟨5, _⟩ => ⟨S8192x1, .f32⟩
  | .hbm, ⟨6, _⟩ => ⟨S256x1, .f32⟩
  | .hbm, ⟨7, _⟩ => ⟨S8192x1, .f32⟩
  | .hbm, ⟨8, _⟩ => ⟨S1x8192, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S1x1, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  slices_S512x1_S256x1_0_0 : S512x1.Slices ![0, 0] S256x1
  slices_S512x1_S256x1_256_0 : S512x1.Slices ![256, 0] S256x1
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S1_S1x1_1 : S1.BroadcastsInDim S1x1 (![1] : Fin 1 → Fin S1x1.rank)
  bcast_S1x1_S8192x8192_0_1 : S1x1.BroadcastsInDim S8192x8192 (![0, 1] : Fin 2 → Fin S8192x8192.rank)
  bcast_S_S8192x8192 : S_.BroadcastsInDim S8192x8192 (![] : Fin 0 → Fin S8192x8192.rank)
  dot_S8192x256_S256x1_S8192x1_1_0_0_1_n_n_wf : DotDims.WF S8192x256 S256x1 S8192x1 [1] [0] [0] [1] [] []

variable [Facts₀]

def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf

class Facts : Prop extends Facts₀ where

variable [Facts]
-- ==== Proof.KernelPay.lean ====
/-
  The body's arithmetic at one entry of its tile. The body loads a [1024, 1] piece of the left column and a
  [1, 2048] piece of the right row, stretches the first along the lanes and the second along the rows, adds them,
  applies σ, and multiplies by the adjacency tile: entry (p, q) of the stored value is
  adj[p, q] · σ(left[p, 0] + right[0, q]). The two loads are through rectangles whose offsets the body computes from
  the grid point, so a loaded entry is the staged array's entry at offset + coordinate.
-/
import proofs.«177778_j1546188227118_2_alg».proof.Proof.Gen.KernelIdeal.Skeleton
import Idealize.ShloMosaic.Lib.Pipeline.Value
import Idealize.ShloMosaic.Lib.ValueIdx

noncomputable section

namespace Cert.KernelIdeal.Pay

open Cert.KernelIdeal Cert.KernelIdeal.Gen Idealize.ShloMosaic Idealize.ShloMosaic.ValueIdx

/-- A [1024, 1] column stretched to [1024, 2048] reads, at (p, q), the column's row p. -/
theorem col_stretch (v : FVec Ideal S1024x1 .f32) (h : S1024x1.Broadcasts S1024x2048) (p : Fin 1024) (q : Fin 2048) :
    broadcastTo S1024x2048 v h (ix2 p q) = v (ix2 p 0) :=
  broadcastTo_apply v h (ix2 p q) (ix2 p 0) (fun a => match a with
    | ⟨0, _⟩ => by show p.val = if (1024 : Nat) = 1 then 0 else p.val; rw [if_neg (by decide)]
    | ⟨1, _⟩ => by show 0 = if (1 : Nat) = 1 then 0 else q.val; rw [if_pos rfl])

/-- A [1, 2048] row stretched to [1024, 2048] reads, at (p, q), the row's lane q. -/
theorem row_stretch (v : FVec Ideal S1x2048 .f32) (h : S1x2048.Broadcasts S1024x2048) (p : Fin 1024) (q : Fin 2048) :
    broadcastTo S1024x2048 v h (ix2 p q) = v (ix2 0 q) :=
  broadcastTo_apply v h (ix2 p q) (ix2 0 q) (fun a => match a with
    | ⟨0, _⟩ => by show 0 = if (1 : Nat) = 1 then 0 else p.val; rw [if_pos rfl]
    | ⟨1, _⟩ => by show q.val = if (2048 : Nat) = 1 then 0 else q.val; rw [if_neg (by decide)])

/-- The stored value at (p, q): the adjacency entry times σ of the sum of the loaded column's row p and the loaded
    row's lane q. -/
theorem pay_apply (v5 : Vec Ideal S1024x1 .f32) (v8 : Vec Ideal S1x2048 .f32) (v14 : Vec Ideal S1024x2048 .f32)
    (p : Fin 1024) (q : Fin 2048) :
    k0_pay1 (F := Ideal) v5 v8 v14 (ix2 p q) = v14 (ix2 p q) * Ideal.logistic (v5 (ix2 p 0) + v8 (ix2 0 q)) := by
  unfold k0_pay1
  show v14 (ix2 p q) * Ideal.logistic
      (broadcastTo S1024x2048 (shapeCast S1024x1 v5 _) _ (ix2 p q) + broadcastTo S1024x2048 (shapeCast S1x2048 v8 _) _ (ix2 p q)) = _
  rw [shapeCast_self, shapeCast_self, col_stretch, row_stretch]

/-- The same with the two loads read: a load through a unit-stride rectangle at offsets `off` reads the staged array
    at offset + coordinate on each axis. -/
theorem tile_entry (i : grid0.Coords) (x0 : Vec Ideal S8192x1 .f32) (x1 : Vec Ideal S1x8192 .f32) (x2 : Vec Ideal S1024x2048 .f32)
    (p : Fin 1024) (q : Fin 2048) (r : S8192x1.Idx) (s : S1x8192.Idx)
    (hr0 : (r 0).val = k0_off1 i 0 + p.val) (hr1 : (r 1).val = k0_off1 i 1)
    (hs0 : (s 0).val = k0_off2 i 0) (hs1 : (s 1).val = k0_off2 i 1 + q.val) :
    k0_pay1 (F := Ideal) (View.ld x0 (Rect.unit (k0_off1 i) S1024x1.size (k0_off1_inb i)))
        (View.ld x1 (Rect.unit (k0_off2 i) S1x2048.size (k0_off2_inb i))) x2 (ix2 p q)
      = x2 (ix2 p q) * Ideal.logistic (x0 r + x1 s) := by
  rw [pay_apply]
  have e0 : View.ld x0 (Rect.unit (k0_off1 i) S1024x1.size (k0_off1_inb i)) (ix2 p 0) = x0 r := by
    show x0 ((Rect.unit (s := S8192x1) (k0_off1 i) S1024x1.size (k0_off1_inb i)).emb (ix2 p 0)) = x0 r
    refine congrArg x0 (funext fun a => Fin.ext ?_)
    match a with
    | ⟨0, _⟩ => show k0_off1 i 0 + 1 * p.val = (r 0).val; rw [hr0]; omega
    | ⟨1, _⟩ => show k0_off1 i 1 + 1 * 0 = (r 1).val; rw [hr1]; omega
  have e1 : View.ld x1 (Rect.unit (k0_off2 i) S1x2048.size (k0_off2_inb i)) (ix2 0 q) = x1 s := by
    show x1 ((Rect.unit (s := S1x8192) (k0_off2 i) S1x2048.size (k0_off2_inb i)).emb (ix2 0 q)) = x1 s
    refine congrArg x1 (funext fun a => Fin.ext ?_)
    match a with
    | ⟨0, _⟩ => show k0_off2 i 0 + 1 * 0 = (s 0).val; rw [hs0]; omega
    | ⟨1, _⟩ => show k0_off2 i 1 + 1 * q.val = (s 1).val; rw [hs1]; omega
  rw [e0, e1]

end Cert.KernelIdeal.Pay

end
-- ==== Proof.KernelPiece.lean ====
/-
  What the body leaves in the output's staging buffer at a grid point: one store covers the whole tile, so the
  buffer ends holding that store's value — the body's arithmetic applied to the piece of the left column and the piece
  of the right row it loaded (through rectangles at the offsets it computed from the point) and to the adjacency tile.
  The body also loads the output buffer once and uses nothing of it. Stated for every float instance.
-/
import proofs.«177778_j1546188227118_2_alg».proof.Proof.Gen.KernelIdeal.Frame
import Idealize.ShloMosaic.Lib.Pipeline.Value
import Idealize.ShloMosaic.Lib.Tactic

set_option maxRecDepth 16384

noncomputable section

namespace Cert.KernelIdeal.Piece

open Cert.KernelIdeal Cert.KernelIdeal.Gen Idealize.ShloMosaic Idealize.ShloMosaic.TcCoe Idealize.SL.Sem Idealize.ShloMosaic.Tactic

variable {F : FTy → Type} [FloatOps F]

theorem hz : (![0, 0] : Fin 2 → Nat) = fun _ => 0 := funext fun a => by fin_cases a <;> rfl

/-- The output's staging buffer after the body: the stored value, over the two offset loads and the whole adjacency
    tile. -/
theorem out_A (c : Dev nD) (i : grid0.Coords) (a2 : Memref sig .tc .vmem S8192x1 .f32) (h2 : a2.IsWhole)
    (a3 : Memref sig .tc .vmem S1x8192 .f32) (h3 : a3.IsWhole) (a4 : Memref sig .tc .vmem S1024x2048 .f32) (h4 : a4.IsWhole)
    (a5 : Memref sig .tc .vmem S1024x2048 .f32) (h5 : a5.IsWhole)
    (x0 : Vec F S8192x1 .f32) (x1 : Vec F S1x8192 .f32) (x2 : Vec F S1024x2048 .f32) :
    out0_A_3 c i a2 h2 a3 h3 a4 h4 a5 h5 x0 x1 x2
      = k0_pay1 (View.ld x0 (Rect.unit (k0_off1 i) S1024x1.size (k0_off1_inb i)))
          (View.ld x1 (Rect.unit (k0_off2 i) S1x2048.size (k0_off2_inb i))) x2 := by
  unfold out0_A_3
  rw [View.read_writes_eq_canon _ _ _ (cover0_A_3 c i a2 h2 a3 h3 a4 h4 a5 h5 x0 x1 x2)]
  unfold kernelRun0_A
  dsimp only
  rw [View.canon_unit_zero hz]
  simp only [View.readAt_eq_ld, h2.read_unread, h3.read_unread, h4.read_unread, View.ld_unit_zero (S := S1024x2048) hz]

end Cert.KernelIdeal.Piece

end
-- ==== Proof.KernelHost.lean ====
/-
  What the region finds in the two arrays the host builds before it: the left column is the product of x with the
  first half of W plus the bias broadcast down the column, so its row r is L[r, 0] + b[0]; the right row is the
  transpose of the product of x with the second half of W, so its lane s is R[s, 0]. The products themselves are
  left as they are.
-/
import proofs.«177778_j1546188227118_2_alg».proof.Proof.Gen.KernelIdeal.Frame
import Idealize.ShloMosaic.Lib.Pipeline.Value
import Idealize.ShloMosaic.Lib.StableHlo.Run
import Idealize.ShloMosaic.Lib.ValueIdx

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The product of x with the first half of W, as the host computes it. -/
abbrev projL (c : Dev nD) : FVec Ideal S8192x1 .f32 :=
  Host.dotGeneral (F := Ideal) (φ₁ := .f32) (φ₂ := .f32) dot_S8192x256_S256x1_S8192x1_1_0_0_1_n_n none (m ((c : Thread nD τ).loc main_arg0))
    (extractStridedSlice S256x1 ![0, 0] (m ((c : Thread nD τ).loc main_arg2)) slices_S512x1_S256x1_0_0)

/-- The product of x with the second half of W. -/
abbrev projR (c : Dev nD) : FVec Ideal S8192x1 .f32 :=
  Host.dotGeneral (F := Ideal) (φ₁ := .f32) (φ₂ := .f32) dot_S8192x256_S256x1_S8192x1_1_0_0_1_n_n none (m ((c : Thread nD τ).loc main_arg0))
    (extractStridedSlice S256x1 ![256, 0] (m ((c : Thread nD τ).loc main_arg2)) slices_S512x1_S256x1_256_0)

/-- The left column as the region finds it: the first product plus the bias broadcast to a column. -/
theorem left_eq (c : Dev nD) :
    (V m c main_v5 : S8192x1.Idx → EReal)
      = addf (projL m c) (broadcastInDim S8192x1 ![0, 1] bcast_S1x1_S8192x1_0_1
          (broadcastInDim S1x1 ![1] bcast_S1_S1x1_1 (m ((c : Thread nD τ).loc main_arg3)))) := by
  dsimp only [V, hostOps0]; after_results

/-- The right row as the region finds it: the second product transposed. -/
theorem right_eq (c : Dev nD) :
    (V m c main_v7 : S1x8192.Idx → EReal)
      = transpose S1x8192 [1, 0] (projR m c) transposes_S8192x1_S1x8192_1_0 := by
  dsimp only [V, hostOps0]; after_results

/-- Row r of the left column is L[r, 0] + b[0]. -/
theorem left_apply (c : Dev nD) (r : Fin 8192) :
    (V m c main_v5 : S8192x1.Idx → EReal) (ix2 r 0) = projL m c (ix2 r 0) + m ((c : Thread nD τ).loc main_arg3) (ix1 0) := by
  rw [left_eq]
  show projL m c (ix2 r 0) + broadcastInDim S8192x1 ![0, 1] bcast_S1x1_S8192x1_0_1
      (broadcastInDim S1x1 ![1] bcast_S1_S1x1_1 (m ((c : Thread nD τ).loc main_arg3))) (ix2 r 0) = _
  rw [broadcastInDim_apply _ bcast_S1x1_S8192x1_0_1 _ (ix2 r 0) (ix2 (n0 := 1) (n1 := 1) 0 0) (fun a => match a with
      | ⟨0, _⟩ => by show 0 = if (1 : Nat) = 1 then 0 else r.val; rw [if_pos rfl]
      | ⟨1, _⟩ => by show 0 = if (1 : Nat) = 1 then 0 else 0; rw [if_pos rfl]),
    broadcastInDim_apply _ bcast_S1_S1x1_1 _ (ix2 (n0 := 1) (n1 := 1) 0 0) (ix1 (n := 1) 0) (fun a => match a with
      | ⟨0, _⟩ => by show 0 = if (1 : Nat) = 1 then 0 else 0; rw [if_pos rfl])]

/-- Lane s of the right row is R[s, 0]. -/
theorem right_apply (c : Dev nD) (s : Fin 8192) :
    (V m c main_v7 : S1x8192.Idx → EReal) (ix2 0 s) = projR m c (ix2 s 0) := by
  rw [right_eq]
  exact transpose_apply [1, 0] (projR m c) transposes_S8192x1_S1x8192_1_0 (ix2 0 s) (ix2 s 0) (fun b => match b with
    | ⟨0, _⟩ => rfl
    | ⟨1, _⟩ => rfl)

end Cert.KernelIdeal.HostSide

end
-- ==== Proof.Spec.lean ====
/-
  The attention mask as one function of four arrays, entry by entry, on the extended reals.

  Entry (i, j) of the mask is adj[i, j] · σ(s[i, j]), where σ(t) = 1 / (1 + e^(-t)) and the score s[i, j] is the sum of
  three terms: row i's left projection L[i, 0], column j's right projection R[j, 0], and the bias b[0]. The projections
  are the products of x with the two halves of W; both programs form them by the same two matrix products, so here they
  are arguments and never opened.

  Two groupings of the three-term sum occur: (L + b) + R, where the bias is folded into the left column first, and
  (L + R) + b, where it is added last. Addition of extended reals is commutative and associative, infinities
  included, so the two agree and no finiteness is assumed anywhere.
-/
import Idealize.ShloMosaic.PureOps.Ideal
import Idealize.ShloMosaic.Lib.ValueIdx
import Idealize.ShloMosaic.Lib.IdealHost

noncomputable section

namespace Cert.AttMask

open Idealize.ShloMosaic Idealize.ShloMosaic.ValueIdx

/-- The mask: entry (i, j) is adj[i, j] · σ((L[i, 0] + b[0]) + R[j, 0]). -/
def att (adj : (⟨2, ![8192, 8192]⟩ : Shape).Idx → EReal) (L R : (⟨2, ![8192, 1]⟩ : Shape).Idx → EReal)
    (b : (⟨1, ![1]⟩ : Shape).Idx → EReal) : (⟨2, ![8192, 8192]⟩ : Shape).Idx → EReal :=
  fun i => adj i * Ideal.logistic
    ((L (ix2 (n0 := 8192) (n1 := 1) (i 0) 0) + b (ix1 (n := 1) 0)) + R (ix2 (n0 := 8192) (n1 := 1) (i 1) 0))

/-- The two groupings of left + bias + right are one extended real. -/
theorem regroup (l r b : EReal) : (l + r) + b = (l + b) + r := add_right_comm l r b

/-- σ spelled out with the literal one, 1 / (1 + e^(-t)), is σ: the f32 word 0x3F800000 is the extended real one. -/
theorem logistic_spelled (t : EReal) :
    Ideal.div (Ideal.ofBits .f32 0x3F800000#32) (Ideal.ofBits .f32 0x3F800000#32 + Ideal.exp (-t)) = Ideal.logistic t := by
  rw [Ideal.ofBits_one_f32]
  rfl

/-- One entry as the host spells it — adj · (1 / (1 + e^(-((l + r) + b)))) in the ideal instance's operations — is
    adj · σ((l + b) + r): σ recognised, the sum regrouped. -/
theorem entry_spelled (a l r b : Ideal .f32) :
    FloatOps.mulf a (FloatOps.hostDivf (FloatOps.ofBits .f32 0x3F800000#32)
      (FloatOps.addf (FloatOps.ofBits .f32 0x3F800000#32)
        (FloatOps.hostUnary .exp (FloatOps.hostNegf (FloatOps.addf (FloatOps.addf l r) b)))))
      = (a : EReal) * Ideal.logistic ((l + b) + r) := by
  show (a : EReal) * Ideal.div (Ideal.ofBits .f32 0x3F800000#32) (Ideal.ofBits .f32 0x3F800000#32 + Ideal.exp (-((l + r) + b))) = _
  rw [logistic_spelled, regroup]

end Cert.AttMask

end
-- ==== Proof.KernelValue.lean ====
/-
  The kernel's result array as one function of its arguments. The grid is 8 × 4; point (i, j) writes back the
  [1024, 2048] tile at rows 1024·i … and columns 2048·j … . The whole left column and the whole right row are staged
  once; the body takes rows 1024·i … of the column and lanes 2048·j … of the row, so entry (p, q) of the tile it
  writes is adj[1024·i + p, 2048·j + q] · σ(left[1024·i + p, 0] + right[0, 2048·j + q]): the tile is the restriction of
  ONE function of the three staged arrays. The 32 tiles cover the array (the tile of entry (r, s) is the one at
  (r / 1024, s / 2048)), so the array ends at that function; and with the left column L + b and the right row the
  transpose of R, that function is the mask of adj, L, R and b.
-/
import proofs.«177778_j1546188227118_2_alg».proof.Proof.Gen.KernelIdeal.Value
import proofs.«177778_j1546188227118_2_alg».proof.Proof.KernelPay
import proofs.«177778_j1546188227118_2_alg».proof.Proof.KernelPiece
import proofs.«177778_j1546188227118_2_alg».proof.Proof.KernelHost
import proofs.«177778_j1546188227118_2_alg».proof.Proof.Spec

noncomputable section

namespace Cert.KernelIdeal.ArrValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Entry (r, s) from the three staged arrays: adj[r, s] · σ(left[r, 0] + right[0, s]). -/
def tileFn (A0 : S8192x1.Idx → EReal) (A1 : S1x8192.Idx → EReal) (A2 : S8192x8192.Idx → EReal) : S8192x8192.Idx → EReal :=
  fun g => A2 g * Ideal.logistic (A0 (ix2 (n0 := 8192) (n1 := 1) (g 0) 0) + A1 (ix2 (n0 := 1) (n1 := 8192) 0 (g 1)))

/-- The index maps and the body's load offsets over the 32 points: the column and the row stay at block (0, 0), the
    adjacency tile moves with the output tile, the column is read from row 1024 · (tile row), the row from lane
    2048 · (tile column), and the tile indices stay within 8 × 4. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = win0_3.index t (1 : Fin 2)
    ∧ k0_off1 (grid0.coords t) 0 = win0_3.index t (0 : Fin 2) * 1024 ∧ k0_off1 (grid0.coords t) 1 = 0
    ∧ k0_off2 (grid0.coords t) 0 = 0 ∧ k0_off2 (grid0.coords t) 1 = win0_3.index t (1 : Fin 2) * 2048
    ∧ win0_3.index t (0 : Fin 2) ≤ 7 ∧ win0_3.index t (1 : Fin 2) ≤ 3 :=
  (by decide +kernel : ∀ t : Fin grid0.N, _)

/-- Every tile of the 8 × 4 arrangement is some point's. -/
theorem idx_onto : ∀ (q0 : Fin 8) (q1 : Fin 4), ∃ t : Fin cfg0.N, win0_3.index t = ![q0.val, q1.val] :=
  (by decide +kernel : ∀ (q0 : Fin 8) (q1 : Fin 4), ∃ t : Fin grid0.N, win0_3.index t = ![q0.val, q1.val])

/-- One entry of the stored tile, over plain arrays: if the staged column and row are A0 and A1, the adjacency tile's
    entry is A2's at (b0·1024 + p, b1·2048 + q), and the body's loads start at row b0·1024 and lane b1·2048, then the
    stored entry is the whole-array function's there. -/
theorem tile_fn_entry (i : grid0.Coords) (b0 b1 : Nat) (x0 : Vec Ideal S8192x1 .f32) (x1 : Vec Ideal S1x8192 .f32)
    (x2 : Vec Ideal S1024x2048 .f32) (A0 : S8192x1.Idx → EReal) (A1 : S1x8192.Idx → EReal) (A2 : S8192x8192.Idx → EReal)
    (j : S1024x2048.Idx) (g : S8192x8192.Idx)
    (hg0 : (g 0).val = b0 * 1024 + (j 0).val) (hg1 : (g 1).val = b1 * 2048 + (j 1).val)
    (o10 : k0_off1 i 0 = b0 * 1024) (o11 : k0_off1 i 1 = 0) (o20 : k0_off2 i 0 = 0) (o21 : k0_off2 i 1 = b1 * 2048)
    (hx0 : ∀ r : S8192x1.Idx, x0 r = A0 r) (hx1 : ∀ s : S1x8192.Idx, x1 s = A1 s) (hx2 : x2 j = A2 g) :
    k0_pay1 (F := Ideal) (View.ld x0 (Rect.unit (k0_off1 i) S1024x1.size (k0_off1_inb i)))
        (View.ld x1 (Rect.unit (k0_off2 i) S1x2048.size (k0_off2_inb i))) x2 j = tileFn A0 A1 A2 g := by
  obtain ⟨p, q, rfl⟩ : ∃ (p : Fin 1024) (q : Fin 2048), j = ix2 p q := ⟨j 0, j 1, eq_ix2 j⟩
  rw [Pay.tile_entry i x0 x1 x2 p q (ix2 (n0 := 8192) (n1 := 1) (g 0) 0) (ix2 (n0 := 1) (n1 := 8192) 0 (g 1))
    (by show (g 0).val = k0_off1 i 0 + p.val; rw [o10]; exact hg0)
    (by show 0 = k0_off1 i 1; rw [o11])
    (by show 0 = k0_off2 i 0; rw [o20])
    (by show (g 1).val = k0_off2 i 1 + q.val; rw [o21]; exact hg1)]
  unfold tileFn
  rw [hx0, hx1, hx2]

/-- What point t writes back is tile t of the whole-array function of the three arrays as the region finds them. -/
theorem flushed_eq (c : Dev nD) (t : Fin cfg0.N) :
    (dats m 0 c).flushed 3 t
      = ((cfg0.win 3).blk t).view.read (Elt Ideal) (tileFn (V m c main_v5) (V m c main_v7) (V m c main_arg1)) := by
  rw [Value.flushed3_A, Piece.out_A]
  obtain ⟨e00, e01, e10, e11, e20, e21, o10, o11, o20, o21, -, -⟩ := idx_facts t
  funext j
  refine tile_fn_entry (grid0.coords t) (win0_3.index t (0 : Fin 2)) (win0_3.index t (1 : Fin 2))
    (iblk m c 0 t) (iblk m c 1 t) (iblk m c 2 t) (V m c main_v5) (V m c main_v7) (V m c main_arg1)
    j (((cfg0.win 3).blk t).view.emb j) ?_ ?_ o10 o11 o20 o21 ?_ ?_ ?_
  · show win0_3.index t (0 : Fin 2) * 1024 + 1 * (j 0).val = _; omega
  · show win0_3.index t (1 : Fin 2) * 2048 + 1 * (j 1).val = _; omega
  · intro r
    show V m c main_v5 (((cfg0.win 0).blk t).view.emb r) = V m c main_v5 r
    refine congrArg (V m c main_v5) (funext fun a => Fin.ext ?_)
    match a with
    | ⟨0, _⟩ => show win0_0.index t (0 : Fin 2) * 8192 + 1 * (r 0).val = (r 0).val; rw [e00]; omega
    | ⟨1, _⟩ => show win0_0.index t (1 : Fin 2) * 1 + 1 * (r 1).val = (r 1).val; rw [e01]; omega
  · intro s
    show V m c main_v7 (((cfg0.win 1).blk t).view.emb s) = V m c main_v7 s
    refine congrArg (V m c main_v7) (funext fun a => Fin.ext ?_)
    match a with
    | ⟨0, _⟩ => show win0_1.index t (0 : Fin 2) * 1 + 1 * (s 0).val = (s 0).val; rw [e10]; omega
    | ⟨1, _⟩ => show win0_1.index t (1 : Fin 2) * 8192 + 1 * (s 1).val = (s 1).val; rw [e11]; omega
  · show V m c main_arg1 (((cfg0.win 2).blk t).view.emb j) = V m c main_arg1 (((cfg0.win 3).blk t).view.emb j)
    refine congrArg (V m c main_arg1) (funext fun a => Fin.ext ?_)
    match a with
    | ⟨0, _⟩ => show win0_2.index t (0 : Fin 2) * 1024 + 1 * (j 0).val = win0_3.index t (0 : Fin 2) * 1024 + 1 * (j 0).val; rw [e20]
    | ⟨1, _⟩ => show win0_2.index t (1 : Fin 2) * 2048 + 1 * (j 1).val = win0_3.index t (1 : Fin 2) * 2048 + 1 * (j 1).val; rw [e21]

/-- An entry of the array is in point t's tile iff each coordinate is in the tile's range on its axis. -/
theorem mem_blk (t : Fin cfg0.N) (i : S8192x8192.Idx) :
    i ∈ ((cfg0.win 3).blk t).view.set ↔ ∀ a : Fin 2, win0_3.index t a * S1024x2048.size a ≤ (i a).val
      ∧ (i a).val < win0_3.index t a * S1024x2048.size a + S1024x2048.size a := by
  show i ∈ ((View.whole main_v8).slice (win0_3.rect t)).set ↔ _
  rw [View.set_slice_whole, Rect.mem_set_unit]
  exact Iff.rfl

/-- The array after the run is the whole-array function: every entry (r, s) lies in the tile at (r / 1024, s / 2048). -/
theorem final (c : Dev nD) :
    (dats m 0 c).arrAt 3 cfg0.N = tileFn (V m c main_v5) (V m c main_v7) (V m c main_arg1) :=
  (dats m 0 c).arrAt_eq_of_cover 3 (tileFn (V m c main_v5) (V m c main_v7) (V m c main_arg1))
    (fun t _ => flushed_eq m c t) fun i => by
      have hi0 : (i 0).val < 8192 := (i 0).isLt
      have hi1 : (i 1).val < 8192 := (i 1).isLt
      obtain ⟨t, ht⟩ := idx_onto ⟨(i 0).val / 1024, by omega⟩ ⟨(i 1).val / 2048, by omega⟩
      have q0 : win0_3.index t (0 : Fin 2) = (i 0).val / 1024 := congrFun ht 0
      have q1 : win0_3.index t (1 : Fin 2) = (i 1).val / 2048 := congrFun ht 1
      refine ⟨t, flush0_3 t, ?_⟩
      rw [mem_blk]
      intro a
      match a with
      | ⟨0, _⟩ => show win0_3.index t (0 : Fin 2) * 1024 ≤ (i 0).val ∧ (i 0).val < win0_3.index t (0 : Fin 2) * 1024 + 1024; omega
      | ⟨1, _⟩ => show win0_3.index t (1 : Fin 2) * 2048 ≤ (i 1).val ∧ (i 1).val < win0_3.index t (1 : Fin 2) * 2048 + 2048; omega

/-- With the left column L + b and the right row the transpose of R, the whole-array function is the mask. -/
theorem tileFn_eq_att (c : Dev nD) :
    tileFn (V m c main_v5) (V m c main_v7) (V m c main_arg1)
      = Cert.AttMask.att (m ((c : Thread nD τ).loc main_arg1)) (HostSide.projL m c) (HostSide.projR m c)
          (m ((c : Thread nD τ).loc main_arg3)) := by
  funext g
  exact congrArg₂ (· * ·) (congrFun (V_main_arg1 m c) g)
    (congrArg Ideal.logistic (congrArg₂ (· + ·) (HostSide.left_apply m c (g 0)) (HostSide.right_apply m c (g 1))))

/-- The run, read: the result array at the mask of the arguments, the arguments unchanged. -/
theorem run : θ_run defs (onTc (τ := τ) (main (F := Ideal))) ⟨m, fun _ => 0, ρ⟩ fun r => ∀ c : Dev nD,
      r.2.mem ((c : Thread nD τ).loc main_v8)
        = Cert.AttMask.att (m ((c : Thread nD τ).loc main_arg1)) (HostSide.projL m c) (HostSide.projR m c)
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (tileFn_eq_att m c)), (h c).2⟩)
    (Value.run_blocks m ρ)

end Cert.KernelIdeal.ArrValue

end
-- ==== Proof.RefValue.lean ====
/-
  The reference's result is the mask: read entry by entry, its last stage multiplies adj[i, j] by
  1 / (1 + e^(-s)) with s = (L[i, 0] + R[j, 0]) + b[0], where L and R are the two matrix products of x with the
  halves of W (left as they are), the row-to-column transpose and the three broadcasts only move indices, and the
  bias is added last. Regrouping the three-term sum and recognising σ gives the mask's entry.
-/
import proofs.«177778_j1546188227118_2_alg».proof.Proof.Gen.ReferenceIdeal.Read
import proofs.«177778_j1546188227118_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The reference's last stage, at the ideal instance, is the mask of adj, the two projections of x and the bias. -/
theorem ref_is_att (x0 : (⟨S8192x256, .f32⟩ : BufTy).Contents (Elt Ideal)) (x1 : (⟨S8192x8192, .f32⟩ : BufTy).Contents (Elt Ideal))
    (x2 : (⟨S512x1, .f32⟩ : BufTy).Contents (Elt Ideal)) (x3 : (⟨S1, .f32⟩ : BufTy).Contents (Elt Ideal)) :
    val_main_v17 (F := Ideal) x0 x1 x2 x3
      = Cert.AttMask.att x1
          (Host.dotGeneral (F := Ideal) (φ₁ := .f32) (φ₂ := .f32) dot_S8192x256_S256x1_S8192x1_1_0_0_1_n_n none x0 (extractStridedSlice S256x1 ![0, 0] x2 slices_S512x1_S256x1_0_0))
          (Host.dotGeneral (F := Ideal) (φ₁ := .f32) (φ₂ := .f32) dot_S8192x256_S256x1_S8192x1_1_0_0_1_n_n none x0 (extractStridedSlice S256x1 ![256, 0] x2 slices_S512x1_S256x1_256_0))
          x3 := by
  funext i
  rw [val_main_v17_apply, val_main_v16_apply, val_main_v15_apply, val_main_cst_0_apply, val_main_v14_apply,
    val_main_v13_apply, val_main_cst_apply, val_main_v12_apply, val_main_v11_apply, val_main_v10_apply,
    val_main_v9_apply, val_main_v8_apply, val_main_v7_apply, val_main_v6_apply, val_main_v5_apply, val_main_v4_apply]
  unfold val_main_v1 val_main_v3 val_main_v0 val_main_v2 Cert.AttMask.att
  -- the broadcasts and the transpose read row i's entry of the left column, row j's of the right, and the one bias
  have eL : idx_main_v5 i = ix2 (n0 := 8192) (n1 := 1) (i 0) 0 := funext fun a => match a with | ⟨0, _⟩ => rfl | ⟨1, _⟩ => rfl
  have eR : idx_main_v4 (idx_main_v6 i) = ix2 (n0 := 8192) (n1 := 1) (i 1) 0 := funext fun a => match a with | ⟨0, _⟩ => rfl | ⟨1, _⟩ => rfl
  have eb : idx_main_v8 (idx_main_v9 i) = ix1 (n := 1) 0 := funext fun a => match a with | ⟨0, _⟩ => rfl
  rw [eL, eR, eb]
  exact Cert.AttMask.entry_spelled _ _ _ _

end Cert.ReferenceIdeal.RefValue

end
-- ==== Proof.lean ====
/-
  Dense attention mask: out[i, j] = adj[i, j] · σ(x[i, :] · W[:256, 0] + x[j, :] · W[256:, 0] + b[0]), σ(t) = 1 / (1 + e^(-t)),
  over x : [8192, 256], adj : [8192, 8192], W : [512, 1], b : [1].

  Both programs form the two projections L = x · W[:256] and R = x · W[256:] by the same two matrix products on the
  host. The kernel folds the bias into the left column (L + b), transposes R to a row, and on an 8 × 4 grid of
  [1024, 2048] tiles computes adj · σ((L + b)[row] + R[column]) with σ as one operation. The reference broadcasts L
  down the rows and R along the columns, adds the bias last, and spells σ out as 1 / (1 + e^(-t)) in four host
  operations.

  At the ideal instance (extended reals, exact operations) these are one function, entry by entry:
    * σ as one operation is by definition 1 / (1 + e^(-t)) with the same division and exponential, and the literal
      one is the extended real one;
    * (L + b) + R = (L + R) + b, since addition of extended reals is commutative and associative at the infinities
      too — so the precondition (finite inputs) is never opened;
    * the tiling only partitions the entries: the tile written at point (i, j) is the restriction of the whole-array
      function to rows 1024·i … and columns 2048·j …, and the 32 tiles cover the array.
  The matrix products are never opened: they are the same term of the same arguments on both sides.

  Modules: Spec (the mask as a function, the regrouping, σ spelled), RefValue (the reference's last stage is the
  mask), KernelPay (the body's arithmetic at an entry), KernelPiece (what the body leaves in the output buffer),
  KernelHost (the left column and right row the region finds), KernelValue (tiles to the whole array, and the run).
  The three frames are the generated ones (the reference's is its generated run with the result dropped); the
  idealization rewrote nothing, so that conjunct is trivial.
-/
import proofs.«177778_j1546188227118_2_alg».proof.Defs
import proofs.«177778_j1546188227118_2_alg».proof.Proof.Gen.Kernel
import proofs.«177778_j1546188227118_2_alg».proof.Proof.Gen.Kernel.Skeleton
import proofs.«177778_j1546188227118_2_alg».proof.Proof.Gen.Kernel.Launch
import proofs.«177778_j1546188227118_2_alg».proof.Proof.Gen.Kernel.Points
import proofs.«177778_j1546188227118_2_alg».proof.Proof.Gen.Kernel.Frame
import proofs.«177778_j1546188227118_2_alg».proof.Proof.Gen.KernelIdeal
import proofs.«177778_j1546188227118_2_alg».proof.Proof.Gen.KernelIdeal.Skeleton
import proofs.«177778_j1546188227118_2_alg».proof.Proof.Gen.KernelIdeal.Launch
import proofs.«177778_j1546188227118_2_alg».proof.Proof.Gen.KernelIdeal.Points
import proofs.«177778_j1546188227118_2_alg».proof.Proof.Gen.KernelIdeal.Frame
import proofs.«177778_j1546188227118_2_alg».proof.Proof.Gen.ReferenceIdeal
import proofs.«177778_j1546188227118_2_alg».proof.Proof.Gen.KernelIdeal.Value
import proofs.«177778_j1546188227118_2_alg».proof.Proof.Gen.ReferenceIdeal.Run
import proofs.«177778_j1546188227118_2_alg».proof.Proof.Gen.ReferenceIdeal.Read
import proofs.«177778_j1546188227118_2_alg».proof.Proof.Gen.Pre_finite_inputs
import proofs.«177778_j1546188227118_2_alg».proof.Proof.KernelValue
import proofs.«177778_j1546188227118_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is host operations only: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at the mask of adj, the two projections of x and the bias: the kernel's by
    its tiles, the reference's by its last stage; the arguments agree, and the projections are the same products. -/
theorem algebraic : Cert.algebraic_KernelIdeal_ReferenceIdeal := by
  intro m ρ m' ρ' _ hagree
  refine ⟨_, Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.ref_is_att,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
